-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v6)) (v1 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_v7) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v9) = v0 c
          ∧ r.2.mem ((c.tc : Thread Cert.ReferenceIdeal.nD Cert.ReferenceIdeal.τ).loc Cert.ReferenceIdeal.main_v3) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x7x512 : Shape := ⟨3, ![4096, 7, 512]⟩
abbrev S512x2048 : Shape := ⟨2, ![512, 2048]⟩
abbrev S2048 : Shape := ⟨1, ![2048]⟩
abbrev S7x2048 : Shape := ⟨2, ![7, 2048]⟩
abbrev S_ : Shape := ⟨0, ![]⟩

class Facts : Prop where
  bcast_S_S4096x7x512 : S_.BroadcastsInDim S4096x7x512 (![] : Fin 0 → Fin S4096x7x512.rank)
  reducesTo_S4096x7x512_S_d0_1_2 : S4096x7x512.ReducesTo [0, 1, 2] S_
  h_S_ : 0 < S_.numel
  bcast_S_S512x2048 : S_.BroadcastsInDim S512x2048 (![] : Fin 0 → Fin S512x2048.rank)
  reducesTo_S512x2048_S_d0_1 : S512x2048.ReducesTo [0, 1] S_
  bcast_S_S2048 : S_.BroadcastsInDim S2048 (![] : Fin 0 → Fin S2048.rank)
  reducesTo_S2048_S_d0 : S2048.ReducesTo [0] S_
  bcast_S_S7x2048 : S_.BroadcastsInDim S7x2048 (![] : Fin 0 → Fin S7x2048.rank)
  reducesTo_S7x2048_S_d0_1 : S7x2048.ReducesTo [0, 1] S_

variable [Facts]

def fn_part1 {F : FTy → Type} [FloatOps F] (main_v13 : IVec S_ 1) (main_v16 : IVec S7x2048 1) : IVec S_ 1 :=
  let main_c_5 : IVec S_ 1 := constantI S_ 1 1#1
  let main_v17 : IVec S_ 1 := (fun x v => Host.reduce IntOp.andi x v reducesTo_S7x2048_S_d0_1 h_S_) main_v16 main_c_5
  let main_v18 : IVec S_ 1 := andi main_v13 main_v17
  main_v18

def fn {F : FTy → Type} [FloatOps F] (main_arg0 : FVec F S4096x7x512 .f32) (main_arg1 : FVec F S512x2048 .f32) (main_arg2 : FVec F S2048 .f32) (main_arg3 : FVec F S7x2048 .f32) : IVec S_ 1 :=
  let main_v0 : FVec F S4096x7x512 .f32 := Host.absf main_arg0
  let main_cst : FVec F S_ .f32 := constant S_ .f32 0x7F800000#32
  let main_v1 : FVec F S4096x7x512 .f32 := broadcastInDim S4096x7x512 ![] bcast_S_S4096x7x512 main_cst
  let main_v2 : IVec S4096x7x512 1 := cmpf .olt main_v0 main_v1
  let main_c : IVec S_ 1 := constantI S_ 1 1#1
  let main_v3 : IVec S_ 1 := (fun x v => Host.reduce IntOp.andi x v reducesTo_S4096x7x512_S_d0_1_2 h_S_) main_v2 main_c
  let main_v4 : FVec F S512x2048 .f32 := Host.absf main_arg1
  let main_cst_0 : FVec F S_ .f32 := constant S_ .f32 0x7F800000#32
  let main_v5 : FVec F S512x2048 .f32 := broadcastInDim S512x2048 ![] bcast_S_S512x2048 main_cst_0
  let main_v6 : IVec S512x2048 1 := cmpf .olt main_v4 main_v5
  let main_c_1 : IVec S_ 1 := constantI S_ 1 1#1
  let main_v7 : IVec S_ 1 := (fun x v => Host.reduce IntOp.andi x v reducesTo_S512x2048_S_d0_1 h_S_) main_v6 main_c_1
  let main_v8 : IVec S_ 1 := andi main_v3 main_v7
  let main_v9 : FVec F S2048 .f32 := Host.absf main_arg2
  let main_cst_2 : FVec F S_ .f32 := constant S_ .f32 0x7F800000#32
  let main_v10 : FVec F S2048 .f32 := broadcastInDim S2048 ![] bcast_S_S2048 main_cst_2
  let main_v11 : IVec S2048 1 := cmpf .olt main_v9 main_v10
  let main_c_3 : IVec S_ 1 := constantI S_ 1 1#1
  let main_v12 : IVec S_ 1 := (fun x v => Host.reduce IntOp.andi x v reducesTo_S2048_S_d0 h_S_) main_v11 main_c_3
  let main_v13 : IVec S_ 1 := andi main_v8 main_v12
  let main_v14 : FVec F S7x2048 .f32 := Host.absf main_arg3
  let main_cst_4 : FVec F S_ .f32 := constant S_ .f32 0x7F800000#32
  let main_v15 : FVec F S7x2048 .f32 := broadcastInDim S7x2048 ![] bcast_S_S7x2048 main_cst_4
  let main_v16 : IVec S7x2048 1 := cmpf .olt main_v14 main_v15
  fn_part1 (F := F) main_v13 main_v16
-- ==== Kernel.lean ====
abbrev S4096x7x512 : Shape := ⟨3, ![4096, 7, 512]⟩
abbrev S512x2048 : Shape := ⟨2, ![512, 2048]⟩
abbrev S2048 : Shape := ⟨1, ![2048]⟩
abbrev S7x2048 : Shape := ⟨2, ![7, 2048]⟩
abbrev S1x2048 : Shape := ⟨2, ![1, 2048]⟩
abbrev S7x1x2048 : Shape := ⟨3, ![7, 1, 2048]⟩
abbrev S7x4096x512 : Shape := ⟨3, ![7, 4096, 512]⟩
abbrev S7x4096x2048 : Shape := ⟨3, ![7, 4096, 2048]⟩
abbrev S1x512x512 : Shape := ⟨3, ![1, 512, 512]⟩
abbrev S1x1x2048 : Shape := ⟨3, ![1, 1, 2048]⟩
abbrev S1x512x2048 : Shape := ⟨3, ![1, 512, 2048]⟩
abbrev S512x512 : Shape := ⟨2, ![512, 512]⟩
abbrev S4096x7x2048 : Shape := ⟨3, ![4096, 7, 2048]⟩
abbrev S_ : Shape := ⟨0, ![]⟩
abbrev S4096x7 : Shape := ⟨2, ![4096, 7]⟩

abbrev nBuf : Space → Nat
  | .hbm => 13
  | .vmem => 7
  | .smem => 0
  | _ => 0

abbrev bufTy : (tb : Table) → Fin (tcTables nBuf tb) → BufTy
  | .hbm, ⟨0, _⟩ => ⟨S4096x7x512, .f32⟩
  | .hbm, ⟨1, _⟩ => ⟨S512x2048, .f32⟩
  | .hbm, ⟨2, _⟩ => ⟨S2048, .f32⟩
  | .hbm, ⟨3, _⟩ => ⟨S7x2048, .f32⟩
  | .hbm, ⟨4, _⟩ => ⟨S1x2048, .f32⟩
  | .hbm, ⟨5, _⟩ => ⟨S7x2048, .f32⟩
  | .hbm, ⟨6, _⟩ => ⟨S7x2048, .f32⟩
  | .hbm, ⟨7, _⟩ => ⟨S7x1x2048, .f32⟩
  | .hbm, ⟨8, _⟩ => ⟨S7x4096x512, .f32⟩
  | .hbm, ⟨9, _⟩ => ⟨S7x4096x2048, .f32⟩
  | .hbm, ⟨10, _⟩ => ⟨S4096x7x2048, .f32⟩
  | .hbm, ⟨11, _⟩ => ⟨S_, .i1⟩
  | .hbm, ⟨12, _⟩ => ⟨S4096x7, .i1⟩
  | .local _ .vmem, ⟨0, _⟩ => ⟨S1x512x512, .f32⟩
  | .local _ .vmem, ⟨1, _⟩ => ⟨S1x512x512, .f32⟩
  | .local _ .vmem, ⟨2, _⟩ => ⟨S512x2048, .f32⟩
  | .local _ .vmem, ⟨3, _⟩ => ⟨S1x1x2048, .f32⟩
  | .local _ .vmem, ⟨4, _⟩ => ⟨S1x1x2048, .f32⟩
  | .local _ .vmem, ⟨5, _⟩ => ⟨S1x512x2048, .f32⟩
  | .local _ .vmem, ⟨6, _⟩ => ⟨S1x512x2048, .f32⟩
  | _, _ => ⟨S4096x7x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_c : Ref sig .tc := ⟨.hbm, 11, rfl⟩
abbrev main_v7 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![7, 8, 1], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg2.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

abbrev stage0_0 : Fin 2 → Memref sig .tc .vmem S1x512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 1 → Memref sig .tc .vmem S512x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, true]

abbrev stage0_2 : Fin 2 → Memref sig .tc .vmem S1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, true]

abbrev stage0_3 : Fin 2 → Memref sig .tc .vmem S1x512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

class Facts₀ : Prop where
  bcast_S2048_S1x2048_1 : S2048.BroadcastsInDim S1x2048 (![1] : Fin 1 → Fin S1x2048.rank)
  bcast_S1x2048_S7x2048_0_1 : S1x2048.BroadcastsInDim S7x2048 (![0, 1] : Fin 2 → Fin S7x2048.rank)
  shapeCasts_S7x2048_S7x1x2048 : S7x2048.ShapeCasts S7x1x2048
  transposes_S4096x7x512_S7x4096x512_1_0_2 : S4096x7x512.Transposes [1, 0, 2] S7x4096x512
  inb_S1x512x512_S1x512x512_0_0_0 : ∀ a, (![0, 0, 0] : Fin 3 → Nat) a + S1x512x512.size a ≤ S1x512x512.size a
  h_S1x512x512 : 0 < S1x512x512.numel
  shapeCasts_S1x512x512_S512x512 : S1x512x512.ShapeCasts S512x512
  bitsLt_bf16_f32 : FTy.bits .bf16 < FTy.bits .f32
  inb_S512x2048_S512x2048_0_0 : ∀ a, (![0, 0] : Fin 2 → Nat) a + S512x2048.size a ≤ S512x2048.size a
  h_S512x2048 : 0 < S512x2048.numel
  inb_S1x1x2048_S1x1x2048_0_0_0 : ∀ a, (![0, 0, 0] : Fin 3 → Nat) a + S1x1x2048.size a ≤ S1x1x2048.size a
  h_S1x1x2048 : 0 < S1x1x2048.numel
  shapeCasts_S1x1x2048_S1x2048 : S1x1x2048.ShapeCasts S1x2048
  broadcasts_S1x2048_S512x2048 : S1x2048.Broadcasts S512x2048
  inb_S1x512x2048_S1x512x2048_0_0_0 : ∀ a, (![0, 0, 0] : Fin 3 → Nat) a + S1x512x2048.size a ≤ S1x512x2048.size a
  h_S1x512x2048 : 0 < S1x512x2048.numel
  shapeCasts_S1x512x2048_S512x2048 : S1x512x2048.ShapeCasts S512x2048
  shapeCasts_S512x2048_S1x512x2048 : S512x2048.ShapeCasts S1x512x2048
  transposes_S7x4096x2048_S4096x7x2048_1_0_2 : S7x4096x2048.Transposes [1, 0, 2] S4096x7x2048
  bcast_S_S4096x7 : S_.BroadcastsInDim S4096x7 (![] : Fin 0 → Fin S4096x7.rank)
  dot_S512x512_S512x2048_S512x2048_1_0_0_1_n_n_wf : DotDims.WF S512x512 S512x2048 S512x2048 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x512.size a ≤ S7x4096x512.size a
  hwx0_0 : ∀ i : grid0.Coords, EltTy.bits .f32 = 32 ∨ (Rect.block (s := S7x4096x512) S1x512x512.size (cc0_transform_0 i) (hinb0_0 i)).WholeWords (EltTy.packing .f32)
  hstage0_1 : ∀ j, (stage0_1 j).IsWhole
  nbuf0_1 : grid0.bufCount reads0_1 false = 1
  hreads0_1 : ∀ i i' : grid0.Coords, (∀ a, reads0_1 a = true → i a = i' a) → cc0_transform_1 i = cc0_transform_1 i'
  hinb0_1 : ∀ (i : grid0.Coords) a, (cc0_transform_1 i a + 1) * S512x2048.size a ≤ S512x2048.size a
  hwx0_1 : ∀ i : grid0.Coords, EltTy.bits .f32 = 32 ∨ (Rect.block (s := S512x2048) S512x2048.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x2048.size a ≤ S7x1x2048.size a
  hwx0_2 : ∀ i : grid0.Coords, EltTy.bits .f32 = 32 ∨ (Rect.block (s := S7x1x2048) S1x1x2048.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x512x2048.size a ≤ S7x4096x2048.size a
  hwx0_3 : ∀ i : grid0.Coords, EltTy.bits .f32 = 32 ∨ (Rect.block (s := S7x4096x2048) S1x512x2048.size (cc0_transform_3 i) (hinb0_3 i)).WholeWords (EltTy.packing .f32)

variable [Facts₀]

def dot_S512x512_S512x2048_S512x2048_1_0_0_1_n_n : DotDims S512x512 S512x2048 S512x2048 where
  lhsContracting := [1]
  rhsContracting := [0]
  lhsNonContracting := [0]
  rhsNonContracting := [1]
  lhsBatch := []
  rhsBatch := []
  wf := dot_S512x512_S512x2048_S512x2048_1_0_0_1_n_n_wf

abbrev win0_0 : Pipeline.Window sig grid0 :=
  Pipeline.Window.ofSpec (Memref.whole main_v4) S1x512x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x2048.size cc0_transform_1 reads0_1 false false 1 stage0_1 sem0_1
    hrank0 hreads0_1 hinb0_1 nbuf0_1 (Memref.isWhole_whole _) hwx0_1 hstage0_1

abbrev win0_2 : Pipeline.Window sig grid0 :=
  Pipeline.Window.ofSpec (Memref.whole main_v3) S1x1x2048.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v5) S1x512x2048.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S4096x7x512 : Shape := ⟨3, ![4096, 7, 512]⟩
abbrev S512x2048 : Shape := ⟨2, ![512, 2048]⟩
abbrev S2048 : Shape := ⟨1, ![2048]⟩
abbrev S7x2048 : Shape := ⟨2, ![7, 2048]⟩
abbrev S7 : Shape := ⟨1, ![7]⟩
abbrev S_ : Shape := ⟨0, ![]⟩
abbrev S7x1 : Shape := ⟨2, ![7, 1]⟩
abbrev S1 : Shape := ⟨1, ![1]⟩
abbrev S1x1 : Shape := ⟨2, ![1, 1]⟩
abbrev S1x7x2048 : Shape := ⟨3, ![1, 7, 2048]⟩
abbrev S4096x7 : Shape := ⟨2, ![4096, 7]⟩
abbrev S4096x7x2048 : Shape := ⟨3, ![4096, 7, 2048]⟩
abbrev S1x1x2048 : Shape := ⟨3, ![1, 1, 2048]⟩

abbrev nBuf : Space → Nat
  | .hbm => 37
  | .vmem => 0
  | .smem => 0
  | _ => 0

abbrev bufTy : (tb : Table) → Fin (tcTables nBuf tb) → BufTy
  | .hbm, ⟨0, _⟩ => ⟨S4096x7x512, .f32⟩
  | .hbm, ⟨1, _⟩ => ⟨S512x2048, .f32⟩
  | .hbm, ⟨2, _⟩ => ⟨S2048, .f32⟩
  | .hbm, ⟨3, _⟩ => ⟨S7x2048, .f32⟩
  | .hbm, ⟨4, _⟩ => ⟨S7, .i32⟩
  | .hbm, ⟨5, _⟩ => ⟨S_, .i32⟩
  | .hbm, ⟨6, _⟩ => ⟨S7, .i32⟩
  | .hbm, ⟨7, _⟩ => ⟨S7, .i1⟩
  | .hbm, ⟨8, _⟩ => ⟨S_, .i32⟩
  | .hbm, ⟨9, _⟩ => ⟨S7, .i32⟩
  | .hbm, ⟨10, _⟩ => ⟨S7, .i32⟩
  | .hbm, ⟨11, _⟩ => ⟨S7, .i32⟩
  | .hbm, ⟨12, _⟩ => ⟨S7x1, .i32⟩
  | .hbm, ⟨13, _⟩ => ⟨S1, .i32⟩
  | .hbm, ⟨14, _⟩ => ⟨S_, .i32⟩
  | .hbm, ⟨15, _⟩ => ⟨S7x1, .i32⟩
  | .hbm, ⟨16, _⟩ => ⟨S7x1, .i1⟩
  | .hbm, ⟨17, _⟩ => ⟨S1x1, .i32⟩
  | .hbm, ⟨18, _⟩ => ⟨S7x1, .i32⟩
  | .hbm, ⟨19, _⟩ => ⟨S7x1, .i1⟩
  | .hbm, ⟨20, _⟩ => ⟨S7x1, .i1⟩
  | .hbm, ⟨21, _⟩ => ⟨S_, .i1⟩
  | .hbm, ⟨22, _⟩ => ⟨S7, .i1⟩
  | .hbm, ⟨23, _⟩ => ⟨S7x2048, .f32⟩
  | .hbm, ⟨24, _⟩ => ⟨S7x2048, .i1⟩
  | .hbm, ⟨25, _⟩ => ⟨S_, .f32⟩
  | .hbm, ⟨26, _⟩ => ⟨S7x2048, .f32⟩
  | .hbm, ⟨27, _⟩ => ⟨S7x2048, .f32⟩
  | .hbm, ⟨28, _⟩ => ⟨S1x7x2048, .f32⟩
  | .hbm, ⟨29, _⟩ => ⟨S_, .i1⟩
  | .hbm, ⟨30, _⟩ => ⟨S4096x7, .i1⟩
  | .hbm, ⟨31, _⟩ => ⟨S4096x7x2048, .f32⟩
  | .hbm, ⟨32, _⟩ => ⟨S1x1x2048, .f32⟩
  | .hbm, ⟨33, _⟩ => ⟨S4096x7x2048, .f32⟩
  | .hbm, ⟨34, _⟩ => ⟨S4096x7x2048, .f32⟩
  | .hbm, ⟨35, _⟩ => ⟨S4096x7x2048, .f32⟩
  | .hbm, ⟨36, _⟩ => ⟨S4096x7x2048, .f32⟩
  | _, _ => ⟨S4096x7x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_call0_c : Ref sig .tc := ⟨.hbm, 5, rfl⟩
abbrev main_call0_v0 : Ref sig .tc := ⟨.hbm, 6, rfl⟩
abbrev main_call0_v1 : Ref sig .tc := ⟨.hbm, 7, rfl⟩
abbrev main_call0_c_0 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_call0_v5 : Ref sig .tc := ⟨.hbm, 12, rfl⟩
abbrev main_call0_c_1 : Ref sig .tc := ⟨.hbm, 13, rfl⟩
abbrev main_call0_c_2 : Ref sig .tc := ⟨.hbm, 14, rfl⟩
abbrev main_call0_v6 : Ref sig .tc := ⟨.hbm, 15, rfl⟩
abbrev main_call0_v7 : Ref sig .tc := ⟨.hbm, 16, rfl⟩
abbrev main_call0_v8 : Ref sig .tc := ⟨.hbm, 17, rfl⟩
abbrev main_call0_v9 : Ref sig .tc := ⟨.hbm, 18, rfl⟩
abbrev main_call0_v10 : Ref sig .tc := ⟨.hbm, 19, rfl⟩
abbrev main_call0_v11 : Ref sig .tc := ⟨.hbm, 20, rfl⟩
abbrev main_call0_c_3 : Ref sig .tc := ⟨.hbm, 21, rfl⟩
abbrev main_call0_v12 : Ref sig .tc := ⟨.hbm, 22, rfl⟩
abbrev main_call0_v13 : Ref sig .tc := ⟨.hbm, 23, rfl⟩
abbrev main_call0_v14 : Ref sig .tc := ⟨.hbm, 24, rfl⟩
abbrev main_call0_cst : Ref sig .tc := ⟨.hbm, 25, rfl⟩
abbrev main_call0_v15 : Ref sig .tc := ⟨.hbm, 26, rfl⟩
abbrev main_v1 : Ref sig .tc := ⟨.hbm, 27, rfl⟩
abbrev main_v2 : Ref sig .tc := ⟨.hbm, 28, rfl⟩
abbrev main_c : Ref sig .tc := ⟨.hbm, 29, rfl⟩
abbrev main_v3 : Ref sig .tc := ⟨.hbm, 30, rfl⟩
abbrev main_v4 : Ref sig .tc := ⟨.hbm, 31, rfl⟩
abbrev main_v5 : Ref sig .tc := ⟨.hbm, 32, rfl⟩
abbrev main_v6 : Ref sig .tc := ⟨.hbm, 33, rfl⟩
abbrev main_v7 : Ref sig .tc := ⟨.hbm, 34, rfl⟩
abbrev main_v8 : Ref sig .tc := ⟨.hbm, 35, rfl⟩
abbrev main_v9 : Ref sig .tc := ⟨.hbm, 36, rfl⟩

abbrev nD : Nat := 1
abbrev τ : Topo := Topo.v7x

variable {F : FTy → Type} [FloatOps F]

class Facts₀ : Prop where
  bcast_S_S7 : S_.BroadcastsInDim S7 (![] : Fin 0 → Fin S7.rank)
  bcast_S7_S7x1_0 : S7.BroadcastsInDim S7x1 (![0] : Fin 1 → Fin S7x1.rank)
  bcast_S_S7x1 : S_.BroadcastsInDim S7x1 (![] : Fin 0 → Fin S7x1.rank)
  bcast_S1_S1x1_1 : S1.BroadcastsInDim S1x1 (![1] : Fin 1 → Fin S1x1.rank)
  bcast_S1x1_S7x1_0_1 : S1x1.BroadcastsInDim S7x1 (![0, 1] : Fin 2 → Fin S7x1.rank)
  reducesTo_S7x1_S7_d1 : S7x1.ReducesTo [1] S7
  h_S_ : 0 < S_.numel
  bcast_S7_S7x2048_0 : S7.BroadcastsInDim S7x2048 (![0] : Fin 1 → Fin S7x2048.rank)
  bcast_S_S7x2048 : S_.BroadcastsInDim S7x2048 (![] : Fin 0 → Fin S7x2048.rank)
  bcast_S7x2048_S1x7x2048_1_2 : S7x2048.BroadcastsInDim S1x7x2048 (![1, 2] : Fin 2 → Fin S1x7x2048.rank)
  bcast_S_S4096x7 : S_.BroadcastsInDim S4096x7 (![] : Fin 0 → Fin S4096x7.rank)
  bcast_S2048_S1x1x2048_2 : S2048.BroadcastsInDim S1x1x2048 (![2] : Fin 1 → Fin S1x1x2048.rank)
  bcast_S1x1x2048_S4096x7x2048_0_1_2 : S1x1x2048.BroadcastsInDim S4096x7x2048 (![0, 1, 2] : Fin 3 → Fin S4096x7x2048.rank)
  bcast_S1x7x2048_S4096x7x2048_0_1_2 : S1x7x2048.BroadcastsInDim S4096x7x2048 (![0, 1, 2] : Fin 3 → Fin S4096x7x2048.rank)
  gather_S7x2048_S7x1_S7x2048_1_0_n_n_0_1_12048_wf : GatherDims.WF S7x2048 S7x1 S7x2048 [1] [0] [] [0] [] 1 ![1, 2048]
  dot_S4096x7x512_S512x2048_S4096x7x2048_2_0_01_1_n_n_wf : DotDims.WF S4096x7x512 S512x2048 S4096x7x2048 [2] [0] [0, 1] [1] [] []

variable [Facts₀]

def gather_S7x2048_S7x1_S7x2048_1_0_n_n_0_1_12048 : GatherDims S7x2048 S7x1 S7x2048 where
  offsetDims := [1]
  collapsedSliceDims := [0]
  operandBatchingDims := []
  startIndicesBatchingDims := []
  startIndexMap := [0]
  indexVectorDim := 1
  sliceSizes := ![1, 2048]
  wf := gather_S7x2048_S7x1_S7x2048_1_0_n_n_0_1_12048_wf
def dot_S4096x7x512_S512x2048_S4096x7x2048_2_0_01_1_n_n : DotDims S4096x7x512 S512x2048 S4096x7x2048 where
  lhsContracting := [2]
  rhsContracting := [0]
  lhsNonContracting := [0, 1]
  rhsNonContracting := [1]
  lhsBatch := []
  rhsBatch := []
  wf := dot_S4096x7x512_S512x2048_S4096x7x2048_2_0_01_1_n_n_wf

class Facts : Prop extends Facts₀ where

variable [Facts]
-- ==== Proof.KernelPayload.lean ====
/-
  The kernel body's stored value, read at one index.

  At a grid point the body loads a block x of the (position-major) activations, of shape [1, 512, 512] (one
  position, 512 batch rows, all 512 channels), the whole weight matrix w of shape [512, 2048], and one row p of the
  additive table, of shape [1, 1, 2048]; it stores, at (0, r, d),

      (Σ_k x[0, r, k] · w[k, d]) + p[0, 0, d].

  Over the extended reals the two narrowings to bf16 are the identity, the matrix product into a zero accumulator
  is the plain sum over the contraction index, and the shape casts and the row broadcast only re-address.
-/
import proofs.«152440_g81097572483172_cont_9to1c4b_262_12_alg».proof.Proof.Gen.KernelIdeal.Skeleton
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.Payload

open Cert.KernelIdeal Cert.KernelIdeal.Gen Idealize.ShloMosaic Idealize.ShloMosaic.ValueIdx

/-- The body's matrix product: [512, 512] by [512, 2048], contracting the left operand's axis 1 with the right
    operand's axis 0. -/
abbrev prodDims : DotDims S512x512 S512x2048 S512x2048 := dot_S512x512_S512x2048_S512x2048_1_0_0_1_n_n

/-! The operand indices of the product at output index `i` and contraction index `q`, axis by axis. -/

theorem lhs_row (i : S512x2048.Idx) (q : prodDims.contr.Idx) : (prodDims.lhsIdx i q 0).val = (i 0).val := by
  unfold DotDims.lhsIdx
  rw [dif_neg (show ¬(0 : Fin S512x512.rank) ∈ prodDims.lhsBatch by decide),
    dif_pos (show (0 : Fin S512x512.rank) ∈ prodDims.lhsNonContracting by decide)]
  rfl

theorem lhs_contr (i : S512x2048.Idx) (q : prodDims.contr.Idx) :
    (prodDims.lhsIdx i q 1).val = (q ⟨0, by decide⟩).val :=
  prodDims.lhsIdx_val_of_single rfl i q

theorem rhs_contr (i : S512x2048.Idx) (q : prodDims.contr.Idx) :
    (prodDims.rhsIdx i q 0).val = (q ⟨0, by decide⟩).val :=
  prodDims.rhsIdx_val_of_single rfl i q

theorem rhs_col (i : S512x2048.Idx) (q : prodDims.contr.Idx) : (prodDims.rhsIdx i q 1).val = (i 1).val := by
  unfold DotDims.rhsIdx
  rw [dif_neg (show ¬(1 : Fin S512x2048.rank) ∈ prodDims.rhsBatch by decide),
    dif_pos (show (1 : Fin S512x2048.rank) ∈ prodDims.rhsNonContracting by decide)]
  rfl

/-- The product into the zero accumulator, at row `r` and column `d`: the sum over the 512 contracted positions. -/
theorem product_apply (a : FVec Ideal S512x512 .bf16) (w : FVec Ideal S512x2048 .bf16) (r : Fin 512) (d : Fin 2048) :
    matmul prodDims none a w (constant (F := Ideal) S512x2048 .f32 0x00000000#32) (ix2 r d)
      = ∑ k : Fin 512, a (ix2 r k) * w (ix2 k d) := by
  simp only [matmul]
  rw [Ideal.matmul_constant_zero_apply, ← Equiv.sum_comp (contrEquiv1 prodDims 512 rfl rfl).symm]
  refine Finset.sum_congr rfl fun k _ => ?_
  have hk := contrEquiv1_symm_val prodDims 512 rfl rfl k
  have el : prodDims.lhsIdx (ix2 r d) ((contrEquiv1 prodDims 512 rfl rfl).symm k) = ix2 r k :=
    funext fun ax => Fin.ext (by
      match ax with
      | ⟨0, _⟩ => exact lhs_row _ _
      | ⟨1, _⟩ => exact (lhs_contr _ _).trans hk)
  have er : prodDims.rhsIdx (ix2 r d) ((contrEquiv1 prodDims 512 rfl rfl).symm k) = ix2 k d :=
    funext fun ax => Fin.ext (by
      match ax with
      | ⟨0, _⟩ => exact (rhs_contr _ _).trans hk
      | ⟨1, _⟩ => exact rhs_col _ _)
  rw [el, er]

/-- THE STORED VALUE at (u, r, d): the row's product sum plus the additive row's entry. -/
theorem stored_apply (x : Vec Ideal S1x512x512 .f32) (w : Vec Ideal S512x2048 .f32) (p : Vec Ideal S1x1x2048 .f32)
    (u : Fin 1) (r : Fin 512) (d : Fin 2048) :
    k0_pay1 x w p (ix3 u r d)
      = (∑ k : Fin 512, x (ix3 (0 : Fin 1) r k) * w (ix2 k d)) + p (ix3 (0 : Fin 1) (0 : Fin 1) d) := by
  unfold k0_pay1
  refine (shapeCast_ab_1ab_apply _ _ u r d).trans ?_
  refine (addf_apply _ _ _).trans ?_
  refine congrArg₂ (· + ·) ?_ ?_
  · refine (product_apply _ _ r d).trans ?_
    refine Finset.sum_congr rfl fun k _ => ?_
    refine congrArg₂ (· * ·) ?_ ?_
    · exact (truncf_apply (ψ := .bf16) _ bitsLt_bf16_f32 _).trans (shapeCast_1ab_ab_apply x _ r k)
    · exact truncf_apply (ψ := .bf16) _ bitsLt_bf16_f32 _
  · refine (broadcastTo_1b_ab_apply _ _ r d).trans ?_
    exact shapeCast_1ab_ab_apply p _ (0 : Fin 1) d

end Cert.KernelIdeal.Payload

end
-- ==== Proof.Spec.lean ====
/-
  The embedding both programs compute, as one function of the four argument arrays, index by index over
  the extended reals:

      out[b, l, d] = (Σ_c seq[b, l, c] · W[c, d]) + (pos[l, d] + bias[d])

  a token projection (a contraction over the 512 input channels) plus, per position l, the row pos[l, ·]
  of the positional table shifted by the bias. The kernel adds the precomputed row pos + bias to the
  projection; the reference adds the bias to the projection first and the positional row second. On the
  extended reals addition is commutative and associative at every value, the infinities included, so the two
  groupings agree without any finiteness assumption (`regroup`).

  The second result is the all-true mask over [4096, 7].
-/
import Idealize.ShloMosaic.PureOps.Ideal
import Idealize.ShloMosaic.Lib.ValueIdx

noncomputable section

namespace Cert.Embedding

open Idealize.ShloMosaic Idealize.ShloMosaic.ValueIdx

/-- The embedding at batch row `b`, position `l`, feature `d`. -/
def embedAt (seq : FVec Ideal ⟨3, ![4096, 7, 512]⟩ .f32) (W : FVec Ideal ⟨2, ![512, 2048]⟩ .f32)
    (bias : FVec Ideal ⟨1, ![2048]⟩ .f32) (pos : FVec Ideal ⟨2, ![7, 2048]⟩ .f32)
    (b : Fin 4096) (l : Fin 7) (d : Fin 2048) : EReal :=
  (∑ c : Fin 512, seq (ix3 b l c) * W (ix2 c d)) + (pos (ix2 l d) + bias (ix1 d))

/-- The embedding as a whole array. -/
def embed (seq : FVec Ideal ⟨3, ![4096, 7, 512]⟩ .f32) (W : FVec Ideal ⟨2, ![512, 2048]⟩ .f32)
    (bias : FVec Ideal ⟨1, ![2048]⟩ .f32) (pos : FVec Ideal ⟨2, ![7, 2048]⟩ .f32) :
    FVec Ideal ⟨3, ![4096, 7, 2048]⟩ .f32 :=
  fun j => embedAt seq W bias pos (j 0) (j 1) (j 2)

theorem embed_ix3 (seq : FVec Ideal ⟨3, ![4096, 7, 512]⟩ .f32) (W : FVec Ideal ⟨2, ![512, 2048]⟩ .f32)
    (bias : FVec Ideal ⟨1, ![2048]⟩ .f32) (pos : FVec Ideal ⟨2, ![7, 2048]⟩ .f32)
    (b : Fin 4096) (l : Fin 7) (d : Fin 2048) :
    embed seq W bias pos (ix3 b l d) = embedAt seq W bias pos b l d := rfl

/-- Adding the bias first and the positional row second is adding their sum: addition of extended reals is
    commutative and associative everywhere. -/
theorem regroup (s p q : EReal) : (s + q) + p = s + (p + q) := by
  rw [add_assoc, add_comm q p]

/-- The all-true mask. -/
def mask : IVec ⟨2, ![4096, 7]⟩ 1 := fun _ => 1#1

end Cert.Embedding

end
-- ==== Proof.Relayout.lean ====
/-
  The kernel's route to the embedding, as pure re-addressing of arrays.

  The kernel works position-major: it transposes the activations [4096, 7, 512] to [7, 4096, 512], reshapes the
  additive table pos + bias (the bias row broadcast over the seven positions) from [7, 2048] to [7, 1, 2048], lets
  its region fill a position-major result [7, 4096, 2048] with

      region[l, b, d] = (Σ_k A[l, b, k] · W[k, d]) + P[l, 0, d],

  and transposes that back to [4096, 7, 2048]. A transpose read at (b, l, d) is its operand at (l, b, d); the
  reshape keeps the row-major position, so [7, 1, 2048] at (l, 0, d) is [7, 2048] at (l, d); a broadcast reads its
  operand at the named coordinates. Composed, the result at (b, l, d) is
  (Σ_k seq[b, l, k] · W[k, d]) + (pos[l, d] + bias[d]): the embedding.
-/
import proofs.«152440_g81097572483172_cont_9to1c4b_262_12_alg».proof.Proof.Spec
import Idealize.ShloMosaic.Lib.ValueIdx
import Idealize.ShloMosaic.Lib.Pipeline.Value

noncomputable section

namespace Cert.Embedding

open Idealize.ShloMosaic Idealize.ShloMosaic.ValueIdx

/-- The region's result at position `l`, batch row `b`, feature `d`, from position-major activations `A`, the weights
    and the additive table `P`. -/
def regionAt (A : FVec Ideal ⟨3, ![7, 4096, 512]⟩ .f32) (W : FVec Ideal ⟨2, ![512, 2048]⟩ .f32)
    (P : FVec Ideal ⟨3, ![7, 1, 2048]⟩ .f32) (l : Fin 7) (b : Fin 4096) (d : Fin 2048) : EReal :=
  (∑ k : Fin 512, A (ix3 l b k) * W (ix2 k d)) + P (ix3 l (0 : Fin 1) d)

/-- The region's result as a whole position-major array. -/
def regionOut (A : FVec Ideal ⟨3, ![7, 4096, 512]⟩ .f32) (W : FVec Ideal ⟨2, ![512, 2048]⟩ .f32)
    (P : FVec Ideal ⟨3, ![7, 1, 2048]⟩ .f32) : FVec Ideal ⟨3, ![7, 4096, 2048]⟩ .f32 :=
  fun i => regionAt A W P (i 0) (i 1) (i 2)

/-- The additive table as the kernel's host code builds it: the bias as a row, the row repeated over the seven
    positions, added to the positional table, and the sum reshaped to [7, 1, 2048]. -/
def addTable (bias : FVec Ideal ⟨1, ![2048]⟩ .f32) (pos : FVec Ideal ⟨2, ![7, 2048]⟩ .f32)
    (hrow : (⟨1, ![2048]⟩ : Shape).BroadcastsInDim ⟨2, ![1, 2048]⟩ (![1] : Fin 1 → Fin 2))
    (hrep : (⟨2, ![1, 2048]⟩ : Shape).BroadcastsInDim ⟨2, ![7, 2048]⟩ (![0, 1] : Fin 2 → Fin 2))
    (hcast : (⟨2, ![7, 2048]⟩ : Shape).ShapeCasts ⟨3, ![7, 1, 2048]⟩) : FVec Ideal ⟨3, ![7, 1, 2048]⟩ .f32 :=
  shapeCast ⟨3, ![7, 1, 2048]⟩
    (addf pos (broadcastInDim ⟨2, ![7, 2048]⟩ ![0, 1] hrep (broadcastInDim ⟨2, ![1, 2048]⟩ ![1] hrow bias))) hcast

/-- The additive table at (l, 0, d) is pos[l, d] + bias[d]. -/
theorem addTable_apply (bias : FVec Ideal ⟨1, ![2048]⟩ .f32) (pos : FVec Ideal ⟨2, ![7, 2048]⟩ .f32)
    (hrow : (⟨1, ![2048]⟩ : Shape).BroadcastsInDim ⟨2, ![1, 2048]⟩ (![1] : Fin 1 → Fin 2))
    (hrep : (⟨2, ![1, 2048]⟩ : Shape).BroadcastsInDim ⟨2, ![7, 2048]⟩ (![0, 1] : Fin 2 → Fin 2))
    (hcast : (⟨2, ![7, 2048]⟩ : Shape).ShapeCasts ⟨3, ![7, 1, 2048]⟩) (l : Fin 7) (d : Fin 2048) :
    addTable bias pos hrow hrep hcast (ix3 l (0 : Fin 1) d) = pos (ix2 l d) + bias (ix1 d) := by
  unfold addTable
  refine (shapeCast_apply _ hcast (ix3 l (0 : Fin 1) d) (ix2 l d) ?_).trans ?_
  · rw [Shape.rowMajor_val_two, Shape.rowMajor_val_three]
    show l.val * 2048 + d.val = (l.val * 1 + 0) * 2048 + d.val
    omega
  refine (addf_apply _ _ _).trans ?_
  refine congrArg (pos (ix2 l d) + ·) ?_
  refine (broadcastInDim_apply _ hrep _ (ix2 l d) (ix2 (0 : Fin 1) d) fun a => ?_).trans ?_
  · match a with
    | ⟨0, _⟩ => rfl
    | ⟨1, _⟩ => rfl
  refine broadcastInDim_apply _ hrow bias (ix2 (0 : Fin 1) d) (ix1 d) fun a => ?_
  match a with
  | ⟨0, _⟩ => rfl

/-- THE KERNEL'S ROUTE IS THE EMBEDDING: transposing in, filling the position-major result and transposing back
    gives, at every index, the token projection plus (pos + bias). -/
theorem relayout (seq : FVec Ideal ⟨3, ![4096, 7, 512]⟩ .f32) (W : FVec Ideal ⟨2, ![512, 2048]⟩ .f32)
    (bias : FVec Ideal ⟨1, ![2048]⟩ .f32) (pos : FVec Ideal ⟨2, ![7, 2048]⟩ .f32)
    (hin : (⟨3, ![4096, 7, 512]⟩ : Shape).Transposes [1, 0, 2] ⟨3, ![7, 4096, 512]⟩)
    (hrow : (⟨1, ![2048]⟩ : Shape).BroadcastsInDim ⟨2, ![1, 2048]⟩ (![1] : Fin 1 → Fin 2))
    (hrep : (⟨2, ![1, 2048]⟩ : Shape).BroadcastsInDim ⟨2, ![7, 2048]⟩ (![0, 1] : Fin 2 → Fin 2))
    (hcast : (⟨2, ![7, 2048]⟩ : Shape).ShapeCasts ⟨3, ![7, 1, 2048]⟩)
    (hout : (⟨3, ![7, 4096, 2048]⟩ : Shape).Transposes [1, 0, 2] ⟨3, ![4096, 7, 2048]⟩) :
    transpose ⟨3, ![4096, 7, 2048]⟩ [1, 0, 2]
        (regionOut (transpose ⟨3, ![7, 4096, 512]⟩ [1, 0, 2] seq hin) W (addTable bias pos hrow hrep hcast)) hout
      = embed seq W bias pos := by
  funext j
  obtain ⟨b, l, d, rfl⟩ : ∃ (b : Fin 4096) (l : Fin 7) (d : Fin 2048), j = ix3 b l d := ⟨j 0, j 1, j 2, eq_ix3 j⟩
  refine (transpose_apply _ _ hout (ix3 b l d) (ix3 l b d) fun a => ?_).trans ?_
  · match a with
    | ⟨0, _⟩ => rfl
    | ⟨1, _⟩ => rfl
    | ⟨2, _⟩ => rfl
  show regionAt _ W _ l b d = embedAt seq W bias pos b l d
  unfold regionAt embedAt
  refine congrArg₂ (· + ·) (Finset.sum_congr rfl fun k _ => ?_) (addTable_apply bias pos hrow hrep hcast l d)
  refine congrArg (· * W (ix2 k d)) ?_
  refine transpose_apply _ seq hin (ix3 l b k) (ix3 b l k) fun a => ?_
  match a with
  | ⟨0, _⟩ => rfl
  | ⟨1, _⟩ => rfl
  | ⟨2, _⟩ => rfl

end Cert.Embedding

end
-- ==== Proof.KernelRegion.lean ====
/-
  The region's result array after the launch.

  The grid has 7 × 8 × 1 points (position l, batch tile i, one feature tile). At the point (l, i, 0) the
  activations' block is rows 512·i … 512·i + 511 of position l (all channels), the weights' block is the whole
  matrix, the additive table's block is its row l, and the result's block is rows 512·i … 512·i + 511 of position l
  (all features). What the point writes back is therefore the block of ONE whole-array function, `regionOut` of the
  three arrays as the region finds them; the 56 blocks tile the result array (the block over row r of position l
  belongs to the point (l, r / 512, 0)), so after the last point the array IS that function.
-/
import proofs.«152440_g81097572483172_cont_9to1c4b_262_12_alg».proof.Proof.Gen.KernelIdeal.Frame
import proofs.«152440_g81097572483172_cont_9to1c4b_262_12_alg».proof.Proof.KernelPayload
import proofs.«152440_g81097572483172_cont_9to1c4b_262_12_alg».proof.Proof.Relayout
import Idealize.ShloMosaic.Lib.Pipeline.Value

noncomputable section

namespace Cert.KernelIdeal.Region

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ)

theorem zero3 : (![0, 0, 0] : Fin 3 → Nat) = fun _ => 0 := funext fun a => by fin_cases a <;> rfl
theorem zero2 : (![0, 0] : Fin 2 → Nat) = fun _ => 0 := funext fun a => by fin_cases a <;> rfl

/-- The printed index maps, decided over the 56 grid points: the activations' and the table's blocks follow the
    result's position, the activations' also its batch tile; every other block index is zero. -/
theorem index_facts : ∀ t : Fin cfg0.N,
    win0_0.index t (0 : Fin 3) = win0_3.index t (0 : Fin 3) ∧ win0_0.index t (1 : Fin 3) = win0_3.index t (1 : Fin 3)
    ∧ win0_0.index t (2 : Fin 3) = 0
    ∧ win0_1.index t (0 : Fin 2) = 0 ∧ win0_1.index t (1 : Fin 2) = 0
    ∧ win0_2.index t (0 : Fin 3) = win0_3.index t (0 : Fin 3) ∧ win0_2.index t (1 : Fin 3) = 0
    ∧ win0_2.index t (2 : Fin 3) = 0
    ∧ win0_3.index t (0 : Fin 3) ≤ 6 ∧ win0_3.index t (1 : Fin 3) ≤ 7 ∧ win0_3.index t (2 : Fin 3) = 0 :=
  (by decide +kernel : ∀ t : Fin grid0.N, _)

/-- Every (position, batch tile) is some point's. -/
theorem index_onto : ∀ (q0 : Fin 7) (q1 : Fin 8), ∃ t : Fin cfg0.N, win0_3.index t = ![q0.val, q1.val, 0] :=
  (by decide +kernel : ∀ (q0 : Fin 7) (q1 : Fin 8), ∃ t : Fin grid0.N, win0_3.index t = ![q0.val, q1.val, 0])

/-! ## The input blocks as entries of their arrays -/

/-- The activations' block at point `t`, entry `x`: the array at block index × block size + `x`, axis by axis. -/
theorem act_block (c : Dev nD) (t : Fin cfg0.N) (x : S1x512x512.Idx) (k : S7x4096x512.Idx)
    (h0 : (k 0).val = win0_0.index t (0 : Fin 3) * 1 + (x 0).val)
    (h1 : (k 1).val = win0_0.index t (1 : Fin 3) * 512 + (x 1).val)
    (h2 : (k 2).val = win0_0.index t (2 : Fin 3) * 512 + (x 2).val) :
    (iblk m c 0 t : Vec Ideal S1x512x512 .f32) x = (V m c main_v4 : S7x4096x512.Idx → EReal) k := by
  unfold iblk
  rw [View.read_apply]
  show V m c main_v4 _ = V m c main_v4 _
  congr 1
  funext a
  apply Fin.ext
  match a with
  | ⟨0, _⟩ => show win0_0.index t (0 : Fin 3) * 1 + 1 * (x 0).val = (k 0).val; omega
  | ⟨1, _⟩ => show win0_0.index t (1 : Fin 3) * 512 + 1 * (x 1).val = (k 1).val; omega
  | ⟨2, _⟩ => show win0_0.index t (2 : Fin 3) * 512 + 1 * (x 2).val = (k 2).val; omega

/-- The weights' block at point `t`. -/
theorem weight_block (c : Dev nD) (t : Fin cfg0.N) (x : S512x2048.Idx) (k : S512x2048.Idx)
    (h0 : (k 0).val = win0_1.index t (0 : Fin 2) * 512 + (x 0).val)
    (h1 : (k 1).val = win0_1.index t (1 : Fin 2) * 2048 + (x 1).val) :
    (iblk m c 1 t : Vec Ideal S512x2048 .f32) x = (V m c main_arg1 : S512x2048.Idx → EReal) k := by
  unfold iblk
  rw [View.read_apply]
  show V m c main_arg1 _ = V m c main_arg1 _
  congr 1
  funext a
  apply Fin.ext
  match a with
  | ⟨0, _⟩ => show win0_1.index t (0 : Fin 2) * 512 + 1 * (x 0).val = (k 0).val; omega
  | ⟨1, _⟩ => show win0_1.index t (1 : Fin 2) * 2048 + 1 * (x 1).val = (k 1).val; omega

/-- The additive table's block at point `t`. -/
theorem table_block (c : Dev nD) (t : Fin cfg0.N) (x : S1x1x2048.Idx) (k : S7x1x2048.Idx)
    (h0 : (k 0).val = win0_2.index t (0 : Fin 3) * 1 + (x 0).val)
    (h1 : (k 1).val = win0_2.index t (1 : Fin 3) * 1 + (x 1).val)
    (h2 : (k 2).val = win0_2.index t (2 : Fin 3) * 2048 + (x 2).val) :
    (iblk m c 2 t : Vec Ideal S1x1x2048 .f32) x = (V m c main_v3 : S7x1x2048.Idx → EReal) k := by
  unfold iblk
  rw [View.read_apply]
  show V m c main_v3 _ = V m c main_v3 _
  congr 1
  funext a
  apply Fin.ext
  match a with
  | ⟨0, _⟩ => show win0_2.index t (0 : Fin 3) * 1 + 1 * (x 0).val = (k 0).val; omega
  | ⟨1, _⟩ => show win0_2.index t (1 : Fin 3) * 1 + 1 * (x 1).val = (k 1).val; omega
  | ⟨2, _⟩ => show win0_2.index t (2 : Fin 3) * 2048 + 1 * (x 2).val = (k 2).val; omega

/-! ## What a point writes back -/

/-- A block entry's value, matched with the whole-array function at the array index `i` it lands on: enough that the
    block's row of activations, column of weights and table entry are the arrays' at `i`'s coordinates. -/
theorem entry_eq (A : FVec Ideal ⟨3, ![7, 4096, 512]⟩ .f32) (W : FVec Ideal ⟨2, ![512, 2048]⟩ .f32)
    (P : FVec Ideal ⟨3, ![7, 1, 2048]⟩ .f32) (x : Vec Ideal S1x512x512 .f32) (w : Vec Ideal S512x2048 .f32)
    (p : Vec Ideal S1x1x2048 .f32) (i : S7x4096x2048.Idx) (r : Fin 512) (d : Fin 2048)
    (hx : ∀ k : Fin 512, x (ix3 (0 : Fin 1) r k) = A (ix3 (i 0) (i 1) k))
    (hw : ∀ k : Fin 512, w (ix2 k d) = W (ix2 k (i 2)))
    (hp : p (ix3 (0 : Fin 1) (0 : Fin 1) d) = P (ix3 (i 0) (0 : Fin 1) (i 2))) :
    (∑ k : Fin 512, x (ix3 (0 : Fin 1) r k) * w (ix2 k d)) + p (ix3 (0 : Fin 1) (0 : Fin 1) d)
      = Cert.Embedding.regionOut A W P i := by
  show _ = Cert.Embedding.regionAt A W P (i 0) (i 1) (i 2)
  unfold Cert.Embedding.regionAt
  rw [hp]
  exact congrArg (· + P (ix3 (i 0) (0 : Fin 1) (i 2))) (Finset.sum_congr rfl fun k _ => by rw [hx k, hw k])

/-- WHAT POINT `t` WRITES BACK is block `t` of `regionOut` of the three arrays as the region finds them. -/
theorem flushed_eq (c : Dev nD) (t : Fin cfg0.N) :
    (dats m 0 c).flushed 3 t = ((cfg0.win 3).blk t).view.read (Elt Ideal)
      (Cert.Embedding.regionOut (V m c main_v4) (V m c main_arg1) (V m c main_v3)) := by
  show (cfg0.win 3).cut (grid0.coords t) ((dats m 0 c).after 3 t) = _
  rw [after0_3]
  unfold out0_3
  rw [View.canon_unit_zero zero3]
  simp only [View.ld_unit_zero (S := S1x512x512) zero3, View.ld_unit_zero (S := S512x2048) zero2,
    View.ld_unit_zero (S := S1x1x2048) zero3]
  obtain ⟨e00, e01, e02, e10, e11, e20, e21, e22, b0, b1, e32⟩ := index_facts t
  funext y
  obtain ⟨u, r, d, rfl⟩ : ∃ (u : Fin 1) (r : Fin 512) (d : Fin 2048), y = ix3 u r d := ⟨y 0, y 1, y 2, eq_ix3 y⟩
  have hu : u.val = 0 := by omega
  show k0_pay1 (iblk m c 0 t) (iblk m c 1 t) (iblk m c 2 t) (ix3 u r d)
    = Cert.Embedding.regionOut (V m c main_v4) (V m c main_arg1) (V m c main_v3) (((cfg0.win 3).blk t).view.emb (ix3 u r d))
  refine (Cert.KernelIdeal.Payload.stored_apply (iblk m c 0 t) (iblk m c 1 t) (iblk m c 2 t) u r d).trans ?_
  refine entry_eq (V m c main_v4) (V m c main_arg1) (V m c main_v3) (iblk m c 0 t) (iblk m c 1 t) (iblk m c 2 t)
    (((cfg0.win 3).blk t).view.emb (ix3 u r d)) r d (fun k => ?_) (fun k => ?_) ?_
  · refine act_block m c t _ _ ?_ ?_ ?_
    · show win0_3.index t (0 : Fin 3) * 1 + 1 * u.val = win0_0.index t (0 : Fin 3) * 1 + 0
      omega
    · show win0_3.index t (1 : Fin 3) * 512 + 1 * r.val = win0_0.index t (1 : Fin 3) * 512 + r.val
      omega
    · show k.val = win0_0.index t (2 : Fin 3) * 512 + k.val
      omega
  · refine weight_block m c t _ _ ?_ ?_
    · show k.val = win0_1.index t (0 : Fin 2) * 512 + k.val
      omega
    · show win0_3.index t (2 : Fin 3) * 2048 + 1 * d.val = win0_1.index t (1 : Fin 2) * 2048 + d.val
      omega
  · refine table_block m c t _ _ ?_ ?_ ?_
    · show win0_3.index t (0 : Fin 3) * 1 + 1 * u.val = win0_2.index t (0 : Fin 3) * 1 + 0
      omega
    · show 0 = win0_2.index t (1 : Fin 3) * 1 + 0
      omega
    · show win0_3.index t (2 : Fin 3) * 2048 + 1 * d.val = win0_2.index t (2 : Fin 3) * 2048 + d.val
      omega

/-! ## The blocks tile the result array -/

/-- An index of the result array is in point `t`'s block iff each coordinate is in the block's range on its axis. -/
theorem mem_block (t : Fin cfg0.N) (i : S7x4096x2048.Idx) :
    i ∈ ((cfg0.win 3).blk t).view.set ↔ ∀ a : Fin 3, win0_3.index t a * S1x512x2048.size a ≤ (i a).val
      ∧ (i a).val < win0_3.index t a * S1x512x2048.size a + S1x512x2048.size a := by
  show i ∈ ((View.whole main_v5).slice (win0_3.rect t)).set ↔ _
  rw [View.set_slice_whole, Rect.mem_set_unit]
  exact Iff.rfl

/-- Every index of the result array is in the block of the point at its position and its row's batch tile. -/
theorem covered (i : S7x4096x2048.Idx) :
    ∃ t : Fin cfg0.N, (cfg0.win 3).flush t = true ∧ i ∈ ((cfg0.win 3).blk t).view.set := by
  have hi0 : (i 0).val < 7 := (i 0).isLt
  have hi1 : (i 1).val < 4096 := (i 1).isLt
  have hi2 : (i 2).val < 2048 := (i 2).isLt
  obtain ⟨t, ht⟩ := index_onto ⟨(i 0).val, hi0⟩ ⟨(i 1).val / 512, by omega⟩
  have q0 : win0_3.index t (0 : Fin 3) = (i 0).val := congrFun ht 0
  have q1 : win0_3.index t (1 : Fin 3) = (i 1).val / 512 := congrFun ht 1
  have q2 : win0_3.index t (2 : Fin 3) = 0 := congrFun ht 2
  refine ⟨t, flush0_3 t, ?_⟩
  rw [mem_block]
  intro a
  match a with
  | ⟨0, _⟩ =>
    show win0_3.index t (0 : Fin 3) * 1 ≤ (i 0).val ∧ (i 0).val < win0_3.index t (0 : Fin 3) * 1 + 1
    omega
  | ⟨1, _⟩ =>
    show win0_3.index t (1 : Fin 3) * 512 ≤ (i 1).val ∧ (i 1).val < win0_3.index t (1 : Fin 3) * 512 + 512
    omega
  | ⟨2, _⟩ =>
    show win0_3.index t (2 : Fin 3) * 2048 ≤ (i 2).val ∧ (i 2).val < win0_3.index t (2 : Fin 3) * 2048 + 2048
    omega

/-- THE RESULT ARRAY after the last point is `regionOut` of the three arrays as the region finds them. -/
theorem final (c : Dev nD) : (dats m 0 c).arrAt 3 cfg0.N
    = Cert.Embedding.regionOut (V m c main_v4) (V m c main_arg1) (V m c main_v3) :=
  (dats m 0 c).arrAt_eq_of_cover 3 (Cert.Embedding.regionOut (V m c main_v4) (V m c main_arg1) (V m c main_v3))
    (fun t _ => flushed_eq m c t) covered

end Cert.KernelIdeal.Region

end
-- ==== Proof.KernelHost.lean ====
/-
  The arrays around the region.

  Before the region the host code writes two of the region's operands: the activations transposed to position-major
  order, and the additive table (the bias as a row, repeated over the seven positions, added to the positional
  table, reshaped to [7, 1, 2048]). After the region it transposes the region's position-major result back to
  [4096, 7, 2048] and writes the all-true mask. Each is read here as a term of the argument arrays, or of the
  region's result array.
-/
import proofs.«152440_g81097572483172_cont_9to1c4b_262_12_alg».proof.Proof.Gen.KernelIdeal.Frame
import proofs.«152440_g81097572483172_cont_9to1c4b_262_12_alg».proof.Proof.Relayout
import Idealize.ShloMosaic.Lib.Pipeline.Value
import Idealize.ShloMosaic.Lib.StableHlo.Run

noncomputable section

namespace Cert.KernelIdeal.Host

open Cert.KernelIdeal Cert.KernelIdeal.Gen Idealize.ShloMosaic Idealize.ShloMosaic.TcCoe Idealize.SL.Sem
open Idealize.ShloMosaic.ValueIdx Idealize.ShloMosaic.StableHlo
open Idealize.ShloMosaic.Pipeline (Dat)

variable (m : (ℓ : Loc nD τ sig) → Buf (Elt Ideal) ℓ)

/-- The region finds the activations transposed to [7, 4096, 512]. -/
theorem V_act (c : Dev nD) : (V m c main_v4 : S7x4096x512.Idx → EReal)
    = transpose S7x4096x512 [1, 0, 2] (m ((c : Thread nD τ).loc main_arg0)) transposes_S4096x7x512_S7x4096x512_1_0_2 := by
  show StableHlo.after hostOps0 (fun b => m (c, b)) (Proc.devRef .tc main_v4) = _
  after_results

/-- The region finds the additive table pos + bias, reshaped to [7, 1, 2048]. -/
theorem V_table (c : Dev nD) : (V m c main_v3 : S7x1x2048.Idx → EReal)
    = Cert.Embedding.addTable (m ((c : Thread nD τ).loc main_arg2)) (m ((c : Thread nD τ).loc main_arg3))
        bcast_S2048_S1x2048_1 bcast_S1x2048_S7x2048_0_1 shapeCasts_S7x2048_S7x1x2048 := by
  show StableHlo.after hostOps0 (fun b => m (c, b)) (Proc.devRef .tc main_v3) = _
  after_results
  rfl

/-- The first result: the region's result array, transposed back to [4096, 7, 2048]. -/
theorem tail_out (c : Dev nD) :
    Pipeline.afterTail₀ cfgs (dats m) 0 (V0 m) [hostOps1] c main_v6
      = transpose S4096x7x2048 [1, 0, 2] ((dats m 0 c).arrAt 3 cfg0.N) transposes_S7x4096x2048_S4096x7x2048_1_0_2 := by
  unfold Pipeline.afterTail₀
  show StableHlo.after hostOps1 _ (Proc.devRef .tc main_v6) = _
  after_results
  exact congrArg (fun x => transpose S4096x7x2048 [1, 0, 2] x transposes_S7x4096x2048_S4096x7x2048_1_0_2)
    (Pipeline.withArrays_arr spec0 launch0.win.arr_inj c _ _ 3)

/-- The second result: the mask, true everywhere. -/
theorem tail_mask (c : Dev nD) :
    Pipeline.afterTail₀ cfgs (dats m) 0 (V0 m) [hostOps1] c main_v7 = Cert.Embedding.mask := by
  unfold Pipeline.afterTail₀
  show StableHlo.after hostOps1 _ (Proc.devRef .tc main_v7) = _
  after_results
  funext i
  rfl

end Cert.KernelIdeal.Host

end
-- ==== Proof.KernelValue.lean ====
/-
  The idealized kernel's run, read: after every weakly fair execution the first result array holds the embedding of
  the four argument arrays and the second the all-true mask; the arguments are unchanged.

  The region's result array is `regionOut` of the arrays the region finds (the blocks tile it); those are the
  transposed activations, the weights as launched, and the additive table; the host code transposes the result back.
  `Embedding.relayout` says that this composition is the embedding, index by index.
-/
import proofs.«152440_g81097572483172_cont_9to1c4b_262_12_alg».proof.Proof.KernelRegion
import proofs.«152440_g81097572483172_cont_9to1c4b_262_12_alg».proof.Proof.KernelHost

noncomputable section

namespace Cert.KernelIdeal.Result

open Cert.KernelIdeal Cert.KernelIdeal.Gen Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-- The region's result array, transposed back, is the embedding of the arguments. -/
theorem result_eq (c : Dev nD) :
    transpose S4096x7x2048 [1, 0, 2] ((dats m 0 c).arrAt 3 cfg0.N) transposes_S7x4096x2048_S4096x7x2048_1_0_2
      = Cert.Embedding.embed (m ((c.tc : Thread nD τ).loc main_arg0)) (m ((c.tc : Thread nD τ).loc main_arg1))
          (m ((c.tc : Thread nD τ).loc main_arg2)) (m ((c.tc : Thread nD τ).loc main_arg3)) := by
  rw [Cert.KernelIdeal.Region.final m c, Cert.KernelIdeal.Host.V_act m c, Cert.KernelIdeal.Host.V_table m c,
    V_main_arg1 m c]
  exact Cert.Embedding.relayout _ _ _ _ _ _ _ _ _

/-- THE RUN: both results named, the arguments unchanged. -/
theorem run : θ_run (defs (F := Ideal)) (onTc (τ := τ) (main (F := Ideal))) ⟨m, fun _ => 0, ρ⟩ fun r => ∀ c : Dev nD,
      r.2.mem ((c.tc : Thread nD τ).loc main_v6)
        = Cert.Embedding.embed (m ((c.tc : Thread nD τ).loc main_arg0)) (m ((c.tc : Thread nD τ).loc main_arg1))
            (m ((c.tc : Thread nD τ).loc main_arg2)) (m ((c.tc : Thread nD τ).loc main_arg3))
      ∧ r.2.mem ((c.tc : Thread nD τ).loc main_v7) = Cert.Embedding.mask
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
    ⟨((h c).2 main_v6 (Pipeline.mem_restRefs_of main_v6 (by decide) (by decide))).trans
        ((Cert.KernelIdeal.Host.tail_out m c).trans (result_eq m c)),
      ((h c).2 main_v7 (Pipeline.mem_restRefs_of main_v7 (by decide) (by decide))).trans
        (Cert.KernelIdeal.Host.tail_mask m c),
      ((h c).2 main_arg0 (Pipeline.mem_restRefs_of main_arg0 (by decide) (by decide))).trans (W_main_arg0 m (dats m) c),
      ((h c).1 1).trans (((dats m 0 c).arrAt_in 1 rfl _).trans ((A_eq m c 1).trans (V_main_arg1 m c))),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c)⟩)
    (run_main m ρ)

end Cert.KernelIdeal.Result

end
-- ==== Proof.RefRun.lean ====
/-
  The reference's @main as one straight line of host operations, and its run.

  @main computes an iota over the seven positions, calls the outlined row-lookup (which itself calls the
  outlined elementwise choice once), and then runs nine more operations of its own: the lookup's result
  broadcast to a leading unit axis, the all-true mask (a constant and its broadcast), the token projection (a
  `dot_general`), the bias broadcast in two steps and added, the positional rows broadcast over the batch and
  added. A call means its callee's body run on the caller's buffers, so with the two callees' definitions
  unfolded at their call sites @main is the list `ops` of thirty-three operations below, the row-lookup's
  twenty-three (its own twenty-two and the choice inside it) written over the call's buffer record. Every
  weakly fair execution then terminates with each buffer at the operations' fold over the launch contents
  (`run_main`), for any float values.
-/
import proofs.«152440_g81097572483172_cont_9to1c4b_262_12_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem
  Idealize.ShloMosaic.StableHlo

variable {F : FTy → Type} [FloatOps F]

/-! ## The operations -/

/-- @main's thirty-three operations in order: the iota; the row-lookup's body over its call's buffers (the zero
    and the seven broadcast, the sign test, the wrapped index, the choice between the two — the inner call's one
    operation —, the index as a column, the two range tests and their conjunction, its reduction over the unit
    axis, the gather, the test broadcast along the row, the not-a-number filler and the final choice); then
    @main's remaining nine. -/
abbrev ops : List (HloOp τ sig (Elt F)) :=
  [ nullary main_v0 (iotaInDim S7 32 0),
    TRef.nullary main_call0.c (constantI S_ 32 0#32),
    TRef.unary main_call0.c main_call0.v0 (broadcastInDim S7 ![] bcast_S_S7),
    TRef.binary (.of main_v0 : TRef sig ⟨S7, .i32⟩) main_call0.v0 main_call0.v1 (cmpi .slt),
    TRef.nullary main_call0.c_0 (constantI S_ 32 7#32),
    TRef.unary main_call0.c_0 main_call0.v2 (broadcastInDim S7 ![] bcast_S_S7),
    TRef.binary (.of main_v0 : TRef sig ⟨S7, .i32⟩) main_call0.v2 main_call0.v3 addi,
    TRef.ternary main_call0.v1 main_call0.v3 (.of main_v0 : TRef sig ⟨S7, .i32⟩) main_call0.call0.v0 select,
    TRef.unary main_call0.call0.v0 main_call0.v5 (broadcastInDim S7x1 ![0] bcast_S7_S7x1_0),
    TRef.nullary main_call0.c_1 (constantI S1 32 6#32),
    TRef.nullary main_call0.c_2 (constantI S_ 32 0#32),
    TRef.unary main_call0.c_2 main_call0.v6 (broadcastInDim S7x1 ![] bcast_S_S7x1),
    TRef.binary main_call0.v5 main_call0.v6 main_call0.v7 (cmpi .sge),
    TRef.unary main_call0.c_1 main_call0.v8 (broadcastInDim S1x1 ![1] bcast_S1_S1x1_1),
    TRef.unary main_call0.v8 main_call0.v9 (broadcastInDim S7x1 ![0, 1] bcast_S1x1_S7x1_0_1),
    TRef.binary main_call0.v5 main_call0.v9 main_call0.v10 (cmpi .sle),
    TRef.binary main_call0.v7 main_call0.v10 main_call0.v11 andi,
    TRef.nullary main_call0.c_3 (constantI S_ 1 1#1),
    TRef.binary main_call0.v11 main_call0.c_3 main_call0.v12 (fun x v => Host.reduce IntOp.andi x v reducesTo_S7x1_S7_d1 h_S_),
    TRef.binary (.of main_arg3 : TRef sig ⟨S7x2048, .f32⟩) main_call0.v5 main_call0.v13 (fun x i => Host.gather gather_S7x2048_S7x1_S7x2048_1_0_n_n_0_1_12048 x i),
    TRef.unary main_call0.v12 main_call0.v14 (broadcastInDim S7x2048 ![0] bcast_S7_S7x2048_0),
    TRef.nullary main_call0.cst (constant S_ .f32 0x7FC00000#32),
    TRef.unary main_call0.cst main_call0.v15 (broadcastInDim S7x2048 ![] bcast_S_S7x2048),
    TRef.ternary main_call0.v14 main_call0.v13 main_call0.v15 main_call0.v16 select,
    unary main_v1 main_v2 (broadcastInDim S1x7x2048 ![1, 2] bcast_S7x2048_S1x7x2048_1_2 : (⟨S7x2048, .f32⟩ : BufTy).Contents (Elt F) → (⟨S1x7x2048, .f32⟩ : BufTy).Contents (Elt F)),
    nullary main_c (constantI S_ 1 1#1),
    unary main_c main_v3 (broadcastInDim S4096x7 ![] bcast_S_S4096x7 : (⟨S_, .i1⟩ : BufTy).Contents (Elt F) → (⟨S4096x7, .i1⟩ : BufTy).Contents (Elt F)),
    binary main_arg0 main_arg1 main_v4 ((fun l r => Host.dotGeneral dot_S4096x7x512_S512x2048_S4096x7x2048_2_0_01_1_n_n none l r) : (⟨S4096x7x512, .f32⟩ : BufTy).Contents (Elt F) → (⟨S512x2048, .f32⟩ : BufTy).Contents (Elt F) → (⟨S4096x7x2048, .f32⟩ : BufTy).Contents (Elt F)),
    unary main_arg2 main_v5 (broadcastInDim S1x1x2048 ![2] bcast_S2048_S1x1x2048_2 : (⟨S2048, .f32⟩ : BufTy).Contents (Elt F) → (⟨S1x1x2048, .f32⟩ : BufTy).Contents (Elt F)),
    unary main_v5 main_v6 (broadcastInDim S4096x7x2048 ![0, 1, 2] bcast_S1x1x2048_S4096x7x2048_0_1_2 : (⟨S1x1x2048, .f32⟩ : BufTy).Contents (Elt F) → (⟨S4096x7x2048, .f32⟩ : BufTy).Contents (Elt F)),
    binary main_v4 main_v6 main_v7 (addf : (⟨S4096x7x2048, .f32⟩ : BufTy).Contents (Elt F) → (⟨S4096x7x2048, .f32⟩ : BufTy).Contents (Elt F) → (⟨S4096x7x2048, .f32⟩ : BufTy).Contents (Elt F)),
    unary main_v2 main_v8 (broadcastInDim S4096x7x2048 ![0, 1, 2] bcast_S1x7x2048_S4096x7x2048_0_1_2 : (⟨S1x7x2048, .f32⟩ : BufTy).Contents (Elt F) → (⟨S4096x7x2048, .f32⟩ : BufTy).Contents (Elt F)),
    binary main_v7 main_v8 main_v9 (addf : (⟨S4096x7x2048, .f32⟩ : BufTy).Contents (Elt F) → (⟨S4096x7x2048, .f32⟩ : BufTy).Contents (Elt F) → (⟨S4096x7x2048, .f32⟩ : BufTy).Contents (Elt F)) ]

-- thirty-three binds re-associated: the rewrite under the chain recurses once per statement
set_option maxRecDepth 2048 in
/-- @main is that straight line: with the two callees' definitions unfolded at their calls and sequencing
    re-associated, both sides are one chain of `hlo` steps. -/
theorem main_eq (c : Dev nD) : main (F := F) c = seq ops := by
  simp only [main, fn_take.body, fn_where.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨nullary_bufs_sub ..,
    nullary_bufs_sub .., unary_bufs_sub .., binary_bufs_sub .., nullary_bufs_sub .., unary_bufs_sub .., binary_bufs_sub ..,
    ternary_bufs_sub .., unary_bufs_sub .., nullary_bufs_sub .., nullary_bufs_sub .., unary_bufs_sub .., binary_bufs_sub ..,
    unary_bufs_sub .., unary_bufs_sub .., binary_bufs_sub .., binary_bufs_sub .., nullary_bufs_sub .., binary_bufs_sub ..,
    binary_bufs_sub .., unary_bufs_sub .., nullary_bufs_sub .., unary_bufs_sub .., ternary_bufs_sub ..,
    unary_bufs_sub .., nullary_bufs_sub .., unary_bufs_sub .., binary_bufs_sub .., unary_bufs_sub .., unary_bufs_sub ..,
    binary_bufs_sub .., unary_bufs_sub .., binary_bufs_sub ..⟩

/-- At the compiled mesh, for any float values, from any memory with zero counters: every weakly fair execution of
    @main terminates, and every final state has each buffer at the operations' fold over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

end Cert.ReferenceIdeal.RefRun

end
-- ==== Proof.RefTerm.lean ====
/-
  The reference's results as terms of its four argument arrays.

  Read off the straight line of RefRun: the row numbers are the positions `0 … 6` (an iota), seven added where a
  position is negative; as a column they are the start indices of a gather of whole rows of the positional
  table; a row whose number lies outside `[0, 6]` would instead be filled with a not-a-number word (the test
  is the conjunction of the two comparisons, reduced over the column's unit axis). The first result is the token
  projection plus the broadcast bias plus those rows broadcast over the batch; the second is the all-true mask.
  `out_eq`, `mask_eq` and `argK_eq` say that the operations' fold holds exactly these terms at the two result
  buffers and leaves the four argument buffers as they were, for any float values.
-/
import proofs.«152440_g81097572483172_cont_9to1c4b_262_12_alg».proof.Proof.RefRun

noncomputable section

namespace Cert.ReferenceIdeal.RefTerm

open Cert.ReferenceIdeal Cert.ReferenceIdeal.Gen Cert.ReferenceIdeal.RefRun Idealize.ShloMosaic Idealize.ShloMosaic.TcCoe
  Idealize.SL.Sem Idealize.ShloMosaic.StableHlo

variable {F : FTy → Type} [FloatOps F]

/-! ## The terms -/

/-- The row numbers: position `l`, or `l + 7` where `l` is negative as a signed word. -/
def rowIdx : IVec S7 32 :=
  select (cmpi .slt (iotaInDim S7 32 0) (broadcastInDim S7 ![] bcast_S_S7 (constantI S_ 32 0#32)))
    (addi (iotaInDim S7 32 0) (broadcastInDim S7 ![] bcast_S_S7 (constantI S_ 32 7#32)))
    (iotaInDim S7 32 0)

/-- The row numbers as a column. -/
def rowCol : IVec S7x1 32 := broadcastInDim S7x1 ![0] bcast_S7_S7x1_0 rowIdx

/-- Per position, whether its row number lies in `[0, 6]`: both comparisons, reduced by `and` over the unit axis. -/
def inRange : IVec S7 1 :=
  Host.reduce IntOp.andi
    (andi (cmpi .sge rowCol (broadcastInDim S7x1 ![] bcast_S_S7x1 (constantI S_ 32 0#32)))
      (cmpi .sle rowCol
        (broadcastInDim S7x1 ![0, 1] bcast_S1x1_S7x1_0_1 (broadcastInDim S1x1 ![1] bcast_S1_S1x1_1 (constantI S1 32 6#32)))))
    (constantI S_ 1 1#1) reducesTo_S7x1_S7_d1 h_S_

/-- The looked-up rows of the positional table: the gathered row where the row number is in range, else the filler. -/
def taken (pos : FVec F S7x2048 .f32) : FVec F S7x2048 .f32 :=
  select (broadcastInDim S7x2048 ![0] bcast_S7_S7x2048_0 inRange)
    (Host.gather gather_S7x2048_S7x1_S7x2048_1_0_n_n_0_1_12048 pos rowCol)
    (broadcastInDim S7x2048 ![] bcast_S_S7x2048 (constant (F := F) S_ .f32 0x7FC00000#32))

/-- The first result: (projection + bias) + looked-up rows, the bias broadcast over batch and position, the rows over
    the batch. -/
def outTerm (seq : FVec F S4096x7x512 .f32) (W : FVec F S512x2048 .f32) (bias : FVec F S2048 .f32)
    (pos : FVec F S7x2048 .f32) : FVec F S4096x7x2048 .f32 :=
  addf
    (addf (Host.dotGeneral dot_S4096x7x512_S512x2048_S4096x7x2048_2_0_01_1_n_n none seq W)
      (broadcastInDim S4096x7x2048 ![0, 1, 2] bcast_S1x1x2048_S4096x7x2048_0_1_2
        (broadcastInDim S1x1x2048 ![2] bcast_S2048_S1x1x2048_2 bias)))
    (broadcastInDim S4096x7x2048 ![0, 1, 2] bcast_S1x7x2048_S4096x7x2048_0_1_2
      (broadcastInDim S1x7x2048 ![1, 2] bcast_S7x2048_S1x7x2048_1_2 (taken pos)))

/-- The second result: the one-bit constant `1` broadcast over batch and position. -/
def maskTerm : IVec S4096x7 1 := broadcastInDim S4096x7 ![] bcast_S_S4096x7 (constantI S_ 1 1#1)

/-! ## The fold read back -/

-- the reduction, the gather and the broadcasts stay folded while the fold is unrolled: the equation never looks
-- inside them, and their bodies are searches over index sets the unifier would otherwise open first
attribute [local irreducible] Host.reduce Host.gather broadcastInDim in
set_option maxRecDepth 8192 in
/-- After the line the first result buffer holds `outTerm` of the four arguments' contents: the fold unrolled, each
    operation's result decides whether the buffer read is the one it writes, and the typed references' transports
    are the identity at these literal references — all by computation. -/
theorem out_eq (V : Valuation τ sig (Elt F)) :
    after ops V (main_v9 : DevRef τ sig)
      = outTerm (V (main_arg0 : DevRef τ sig)) (V (main_arg1 : DevRef τ sig)) (V (main_arg2 : DevRef τ sig))
          (V (main_arg3 : DevRef τ sig)) := by
  simp only [after_cons, after_nil]
  rfl

/-- After the line the second result buffer holds `maskTerm`. -/
theorem mask_eq (V : Valuation τ sig (Elt F)) : after ops V (main_v3 : DevRef τ sig) = maskTerm := by
  after_results
  rfl

theorem arg0_eq (V : Valuation τ sig (Elt F)) :
    after ops V (main_arg0 : DevRef τ sig) = V (main_arg0 : DevRef τ sig) := by
  after_results
theorem arg1_eq (V : Valuation τ sig (Elt F)) :
    after ops V (main_arg1 : DevRef τ sig) = V (main_arg1 : DevRef τ sig) := by
  after_results
theorem arg2_eq (V : Valuation τ sig (Elt F)) :
    after ops V (main_arg2 : DevRef τ sig) = V (main_arg2 : DevRef τ sig) := by
  after_results
theorem arg3_eq (V : Valuation τ sig (Elt F)) :
    after ops V (main_arg3 : DevRef τ sig) = V (main_arg3 : DevRef τ sig) := by
  after_results

end Cert.ReferenceIdeal.RefTerm

end
-- ==== Proof.LibGatherRows.lean ====
/-
  `stablehlo.gather` of whole rows of a rank-2 table, read at an index.

  What `jnp.take(table, idx, axis=0)` of a table `[N, C]` at a vector of `R` row numbers lowers to: a gather
  with offset_dims `[1]`, collapsed_slice_dims `[0]`, start_index_map `[0]`, index_vector_dim 1 and slice sizes
  `[1, C]`, over the row numbers as a column `[R, 1]`. Result element `(r, c)` is the table at row
  `idx[r, 0]` — read as a signed integer and clamped into `[0, N − 1]`, as the gather clamps every start index —
  and column `c`: on the row axis the operand index is the clamped start (no batching, the axis is collapsed so
  it has no offset), on the column axis it is the result's own column coordinate (the axis is not in the start
  index map, so its start is 0, and it is the one offset axis).
-/
import Idealize.ShloMosaic.Lib.ValueIdx

noncomputable section

namespace Cert.LibGatherRows

open Idealize.ShloMosaic Idealize.ShloMosaic.ValueIdx

variable {α : Type}

/-- Those dimension numbers for a table `[N, C]`, row numbers `[R, 1]` and result `[R, C]`; their conditions
    `wf` are decided on a program's literal shapes. -/
abbrev rowsDims (N C R : Nat) (wf : GatherDims.WF ⟨2, ![N, C]⟩ ⟨2, ![R, 1]⟩ ⟨2, ![R, C]⟩ [1] [0] [] [0] [] 1 ![1, C]) :
    GatherDims ⟨2, ![N, C]⟩ ⟨2, ![R, 1]⟩ ⟨2, ![R, C]⟩ where
  offsetDims := [1]
  collapsedSliceDims := [0]
  operandBatchingDims := []
  startIndicesBatchingDims := []
  startIndexMap := [0]
  indexVectorDim := 1
  sliceSizes := ![1, C]
  wf := wf

/-- THE GATHER READ AT `(r, c)`: the table at the row `idx[r, 0]`, read signed and clamped into `[0, N − 1]`,
    and column `c`. -/
theorem gather_rows_apply {N C R w : Nat} (hN : 0 < N)
    (wf : GatherDims.WF ⟨2, ![N, C]⟩ ⟨2, ![R, 1]⟩ ⟨2, ![R, C]⟩ [1] [0] [] [0] [] 1 ![1, C])
    (x : (⟨2, ![N, C]⟩ : Shape).Idx → α) (idx : IVec ⟨2, ![R, 1]⟩ w) (r : Fin R) (c : Fin C) :
    Host.gather (rowsDims N C R wf) x idx (ix2 r c)
      = x (ix2 (⟨min (idx (ix2 r (0 : Fin 1))).toInt.toNat (N - 1), by omega⟩ : Fin N) c) := by
  unfold Host.gather
  congr 1
  funext a
  refine Fin.ext ?_
  match a with
  | ⟨0, _⟩ =>
    show (rowsDims N C R wf).start (ix2 r c) idx 0 + (rowsDims N C R wf).batchCoord (ix2 r c) 0
        + (rowsDims N C R wf).offCoord (ix2 r c) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowsDims N C R wf).startIndexMap from List.mem_singleton.mpr rfl)]
    have hsi : (rowsDims N C R wf).siIdx (ix2 r c) ⟨List.idxOf (0 : Fin 2) (rowsDims N C R wf).startIndexMap,
        List.idxOf_lt_length_iff.2 (List.mem_singleton.mpr rfl)⟩ = ix2 r (0 : Fin 1) := by
      funext b; refine Fin.ext ?_
      match b with
      | ⟨0, _⟩ => rfl
      | ⟨1, _⟩ => rfl
    rw [hsi]
    rfl
  | ⟨1, _⟩ =>
    show (rowsDims N C R wf).start (ix2 r c) idx 1 + (rowsDims N C R wf).batchCoord (ix2 r c) 1
        + (rowsDims N C R wf).offCoord (ix2 r c) 1 = c.val
    rw [GatherDims.batchCoord_eq_zero _ _ _ List.not_mem_nil]
    unfold GatherDims.start
    rw [dif_neg (show ¬ (1 : Fin 2) ∈ (rowsDims N C R wf).startIndexMap from
      fun h => absurd (congrArg Fin.val (List.mem_singleton.mp h)) Nat.one_ne_zero)]
    simp only [Nat.add_zero, Nat.zero_add]
    rfl

end Cert.LibGatherRows

end
-- ==== Proof.LibDotRows.lean ====
/-
  A `dot_general` that contracts the last axis of a rank-3 array with the first axis of a matrix, read at an
  index, at the ideal values.

  What `einsum('blc,cd->bld', A, W)` lowers to: contracting axes `[2]` and `[0]`, no batch axes, the result's axes
  the left operand's two free axes followed by the right operand's one. At the extended reals the result at
  `(b, l, d)` is the sum over the contracted coordinate `c` of `A[b, l, c] · W[c, d]`: the contraction index has one
  axis, so it is its one coordinate, the left operand reads `(b, l)` from the result's first two coordinates and the
  right operand reads `d` from its third.
-/
import Idealize.ShloMosaic.PureOps.Ideal.Laws
import Idealize.ShloMosaic.Lib.ValueIdx

noncomputable section

open scoped BigOperators

namespace Cert.LibDotRows

open Idealize.ShloMosaic Idealize.ShloMosaic.ValueIdx

/-- The projection of every row `A[b, l, ·]` through the matrix `W`, read at `(b, l, d)`. `w` is the record's
    well-formedness, which a program states. -/
theorem dotGeneral_rows_apply {B L C D : Nat} {φ₁ φ₂ : FTy}
    (w : DotDims.WF ⟨3, ![B, L, C]⟩ ⟨2, ![C, D]⟩ ⟨3, ![B, L, D]⟩ [2] [0] [0, 1] [1] [] [])
    (prec : Option ContractPrecision) (A : FVec Ideal ⟨3, ![B, L, C]⟩ φ₁) (W : FVec Ideal ⟨2, ![C, D]⟩ φ₂)
    (b : Fin B) (l : Fin L) (d : Fin D) :
    Host.dotGeneral (⟨[2], [0], [0, 1], [1], [], [], w⟩ : DotDims _ _ _) prec A W (ix3 b l d)
      = ∑ c : Fin C, A (ix3 b l c) * W (ix2 c d) := by
  show FloatOps.dotGeneral _ prec _ A W (ix3 b l d) = _
  rw [Ideal.dotGeneral_apply,
    ← Equiv.sum_comp (contrEquiv1 (⟨[2], [0], [0, 1], [1], [], [], w⟩ : DotDims _ _ _) C rfl rfl).symm]
  refine Finset.sum_congr rfl fun c _ => ?_
  have hc := contrEquiv1_symm_val
    (⟨[2], [0], [0, 1], [1], [], [], w⟩ : DotDims ⟨3, ![B, L, C]⟩ ⟨2, ![C, D]⟩ ⟨3, ![B, L, D]⟩) C rfl rfl c
  have hl : (⟨[2], [0], [0, 1], [1], [], [], w⟩ : DotDims ⟨3, ![B, L, C]⟩ ⟨2, ![C, D]⟩ ⟨3, ![B, L, D]⟩).lhsIdx (ix3 b l d)
      ((contrEquiv1 _ C rfl rfl).symm c) = ix3 b l c := by
    funext ax; apply Fin.ext
    match ax with
    | ⟨0, _⟩ => simp [DotDims.lhsIdx]; rfl
    | ⟨1, _⟩ => simp [DotDims.lhsIdx]; rfl
    | ⟨2, _⟩ => simp [DotDims.lhsIdx]; exact hc
  have hr : (⟨[2], [0], [0, 1], [1], [], [], w⟩ : DotDims ⟨3, ![B, L, C]⟩ ⟨2, ![C, D]⟩ ⟨3, ![B, L, D]⟩).rhsIdx (ix3 b l d)
      ((contrEquiv1 _ C rfl rfl).symm c) = ix2 c d := by
    funext ax; apply Fin.ext
    match ax with
    | ⟨0, _⟩ => simp [DotDims.rhsIdx]; exact hc
    | ⟨1, _⟩ => simp [DotDims.rhsIdx]; rfl
  rw [hl, hr]

end Cert.LibDotRows

end
-- ==== Proof.RefValue.lean ====
/-
  The reference's two results, at the ideal values, are the embedding and the all-true mask.

  The row numbers. Position `l` of the iota is the word `l`, which is not negative, so the row number is `l` itself
  (`rowCol_apply`); it lies in `[0, 6]`, so both range comparisons are `1` and so is their reduction over the
  column's unit axis (`inRange_apply`). The final choice therefore takes the gathered row and never the filler, and
  the gather reads row `min l 6 = l` of the positional table at the result's own column:
  `taken pos [l, d] = pos [l, d]` (`taken_apply`).

  The first result at `(b, l, d)`. The `dot_general` is the sum over the 512 input channels of
  `seq[b, l, c] · W[c, d]`; the bias, broadcast in two steps, reads `bias[d]`; the looked-up rows, broadcast in two
  steps, read `pos[l, d]`. So the reference computes `(Σ + bias[d]) + pos[l, d]`, which is the specification's
  `Σ + (pos[l, d] + bias[d])` because addition of extended reals is commutative and associative at every value
  (`Cert.Embedding.regroup`); no finiteness is used.

  The second result is the constant `1` at every index.
-/
import proofs.«152440_g81097572483172_cont_9to1c4b_262_12_alg».proof.Proof.RefTerm
import proofs.«152440_g81097572483172_cont_9to1c4b_262_12_alg».proof.Proof.Spec
import proofs.«152440_g81097572483172_cont_9to1c4b_262_12_alg».proof.Proof.LibGatherRows
import proofs.«152440_g81097572483172_cont_9to1c4b_262_12_alg».proof.Proof.LibDotRows
import Idealize.ShloMosaic.Lib.ValueIdx
import Idealize.ShloMosaic.Lib.Pipeline.Value
import Idealize.ShloMosaic.PureOps.Ideal.Laws

noncomputable section

open scoped BigOperators

namespace Cert.ReferenceIdeal.RefValue

open Cert.ReferenceIdeal Cert.ReferenceIdeal.Gen Cert.ReferenceIdeal.RefRun Cert.ReferenceIdeal.RefTerm
  Idealize.ShloMosaic Idealize.ShloMosaic.TcCoe Idealize.SL.Sem Idealize.ShloMosaic.StableHlo Idealize.ShloMosaic.ValueIdx

/-! ## The row numbers -/

/-- The row number of position `l`, read in the column, is the word `l`. -/
theorem rowCol_apply (l : Fin 7) : rowCol (ix2 l (0 : Fin 1)) = BitVec.ofNat 32 l.val := by
  fin_cases l <;> rfl

/-- Read signed and clamped to the table's last row, the row number of position `l` is `l`. -/
theorem rowCol_clamp (l : Fin 7) : min (rowCol (ix2 l (0 : Fin 1))).toInt.toNat (7 - 1) = l.val := by
  rw [rowCol_apply]
  fin_cases l <;> rfl

/-- Every position's row number is in range. -/
theorem inRange_apply (l : Fin 7) : inRange (ix1 l) = 1#1 := by
  fin_cases l <;> decide

/-! ## The looked-up rows -/

/-- The looked-up row of position `l` is row `l` of the table. -/
theorem taken_apply (pos : FVec Ideal S7x2048 .f32) (l : Fin 7) (d : Fin 2048) :
    taken pos (ix2 l d) = pos (ix2 l d) := by
  have hc : broadcastInDim S7x2048 ![0] bcast_S7_S7x2048_0 inRange (ix2 l d) = 1#1 :=
    (broadcastInDim_apply _ _ _ (ix2 l d) (ix1 l) (fun a => match a with | ⟨0, _⟩ => rfl)).trans (inRange_apply l)
  have hg : Host.gather gather_S7x2048_S7x1_S7x2048_1_0_n_n_0_1_12048 pos rowCol (ix2 l d)
      = pos (ix2 (⟨min (rowCol (ix2 l (0 : Fin 1))).toInt.toNat (7 - 1), by omega⟩ : Fin 7) d) :=
    Cert.LibGatherRows.gather_rows_apply (by decide) _ pos rowCol l d
  unfold taken
  rw [select_apply, hc, select_one, hg]
  exact congrArg (fun r : Fin 7 => pos (ix2 r d)) (Fin.ext (rowCol_clamp l))

/-! ## The first result at an index -/

/-- At `(b, l, d)` the reference's first result is the embedding there. -/
theorem outTerm_apply (seq : FVec Ideal S4096x7x512 .f32) (W : FVec Ideal S512x2048 .f32) (bias : FVec Ideal S2048 .f32)
    (pos : FVec Ideal S7x2048 .f32) (b : Fin 4096) (l : Fin 7) (d : Fin 2048) :
    outTerm seq W bias pos (ix3 b l d) = Cert.Embedding.embedAt seq W bias pos b l d := by
  have h1 : Host.dotGeneral dot_S4096x7x512_S512x2048_S4096x7x2048_2_0_01_1_n_n none seq W (ix3 b l d)
      = ∑ c : Fin 512, seq (ix3 b l c) * W (ix2 c d) :=
    Cert.LibDotRows.dotGeneral_rows_apply _ none seq W b l d
  have h2 : broadcastInDim S4096x7x2048 ![0, 1, 2] bcast_S1x1x2048_S4096x7x2048_0_1_2
        (broadcastInDim S1x1x2048 ![2] bcast_S2048_S1x1x2048_2 bias) (ix3 b l d) = bias (ix1 d) :=
    (broadcastInDim_apply _ _ _ (ix3 b l d) (ix3 (0 : Fin 1) (0 : Fin 1) d)
        (fun a => match a with | ⟨0, _⟩ => rfl | ⟨1, _⟩ => rfl | ⟨2, _⟩ => rfl)).trans
      (broadcastInDim_apply _ _ _ (ix3 (0 : Fin 1) (0 : Fin 1) d) (ix1 d) (fun a => match a with | ⟨0, _⟩ => rfl))
  have h3 : broadcastInDim S4096x7x2048 ![0, 1, 2] bcast_S1x7x2048_S4096x7x2048_0_1_2
        (broadcastInDim S1x7x2048 ![1, 2] bcast_S7x2048_S1x7x2048_1_2 (taken pos)) (ix3 b l d) = pos (ix2 l d) :=
    ((broadcastInDim_apply _ _ _ (ix3 b l d) (ix3 (0 : Fin 1) l d)
        (fun a => match a with | ⟨0, _⟩ => rfl | ⟨1, _⟩ => rfl | ⟨2, _⟩ => rfl)).trans
      (broadcastInDim_apply _ _ _ (ix3 (0 : Fin 1) l d) (ix2 l d) (fun a => match a with | ⟨0, _⟩ => rfl | ⟨1, _⟩ => rfl))).trans
      (taken_apply pos l d)
  unfold outTerm Cert.Embedding.embedAt
  rw [addf_apply, addf_apply, h1, h2, h3]
  exact Cert.Embedding.regroup _ _ _

/-- The reference's first result is the embedding. -/
theorem outTerm_eq (seq : FVec Ideal S4096x7x512 .f32) (W : FVec Ideal S512x2048 .f32) (bias : FVec Ideal S2048 .f32)
    (pos : FVec Ideal S7x2048 .f32) : outTerm seq W bias pos = Cert.Embedding.embed seq W bias pos := by
  funext j
  obtain ⟨b, l, d, rfl⟩ : ∃ (b : Fin 4096) (l : Fin 7) (d : Fin 2048), j = ix3 b l d := ⟨j 0, j 1, j 2, eq_ix3 j⟩
  exact (outTerm_apply seq W bias pos b l d).trans (Cert.Embedding.embed_ix3 seq W bias pos b l d).symm

/-! ## The second result -/

/-- The reference's second result is the all-true mask. -/
theorem maskTerm_eq : maskTerm = Cert.Embedding.mask := by
  funext j
  rfl

/-! ## The run -/

/-- At the compiled mesh, at the ideal values, from any memory with zero counters: every weakly fair execution of the
    reference's @main terminates with its first result the embedding of the four arguments' launch contents, its
    second the all-true mask, and the four arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v9) = Cert.Embedding.embed (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_v3) = Cert.Embedding.mask
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
      ⟨(h c main_v9).trans ((out_eq (launchContents m c)).trans (outTerm_eq _ _ _ _)),
        (h c main_v3).trans ((mask_eq (launchContents m c)).trans maskTerm_eq),
        (h c main_arg0).trans (arg0_eq (launchContents m c)),
        (h c main_arg1).trans (arg1_eq (launchContents m c)),
        (h c main_arg2).trans (arg2_eq (launchContents m c)),
        (h c main_arg3).trans (arg3_eq (launchContents m c))⟩)
    (run_main m ρ)

end Cert.ReferenceIdeal.RefValue

end
-- ==== Proof.lean ====
/-
  A token-and-position embedding: out[b, l, d] = (Σ_c seq[b, l, c] · W[c, d]) + bias[d] + pos[l, d] over
  f32[4096, 7, 2048], with an all-true mask over [4096, 7] as a second result.

  The kernel works position-major: its host code transposes the activations to [7, 4096, 512] and precomputes the
  additive table pos + bias as [7, 1, 2048]; one launch over a 7 × 8 × 1 grid multiplies a [512, 512] block of
  activations (narrowed to bf16) by the whole weight matrix (narrowed to bf16) into a zero accumulator and adds the
  table's row; the host transposes the result back. The reference contracts the activations with the weights
  directly, adds the bias, and adds the rows of the positional table taken at the positions 0 … 6.

  Over the extended reals a change of float format is the identity and a matrix product is the plain sum over the
  contracted index, so both sides are, index by index, the same sum plus the same two addends, grouped differently:
  the kernel adds (pos + bias), the reference adds bias and then pos. Addition of extended reals is commutative and
  associative at every value, so the results agree with no use of the finiteness precondition. Taking rows 0 … 6 of a
  seven-row table returns the table: every index is in range, so the out-of-range fill value is never selected.

  The modules: Spec (the embedding as one function, and the regrouping law), Relayout (the kernel's transposes and
  reshape composed with its region are the embedding), KernelPayload (the body's stored value at an index),
  KernelRegion (each grid point writes its block of one whole-array function, and the blocks tile the array),
  KernelHost (the arrays before and after the region), KernelValue (the kernel's run read), RefRun (the
  reference's program as a list of operations, and its run), RefTerm (its two results as terms of the arguments),
  LibGatherRows and LibDotRows (a gather of whole rows, and a contraction of a rank-3 array's last axis with a
  matrix, each read at an index), RefValue (the reference's run read). The three frames are the generated ones for
  the two kernel programs and the reference's run with the results dropped.
-/
import proofs.«152440_g81097572483172_cont_9to1c4b_262_12_alg».proof.Defs
import proofs.«152440_g81097572483172_cont_9to1c4b_262_12_alg».proof.Proof.Gen.Kernel
import proofs.«152440_g81097572483172_cont_9to1c4b_262_12_alg».proof.Proof.Gen.Kernel.Skeleton
import proofs.«152440_g81097572483172_cont_9to1c4b_262_12_alg».proof.Proof.Gen.Kernel.Launch
import proofs.«152440_g81097572483172_cont_9to1c4b_262_12_alg».proof.Proof.Gen.Kernel.Points
import proofs.«152440_g81097572483172_cont_9to1c4b_262_12_alg».proof.Proof.Gen.Kernel.Frame
import proofs.«152440_g81097572483172_cont_9to1c4b_262_12_alg».proof.Proof.Gen.KernelIdeal
import proofs.«152440_g81097572483172_cont_9to1c4b_262_12_alg».proof.Proof.Gen.KernelIdeal.Skeleton
import proofs.«152440_g81097572483172_cont_9to1c4b_262_12_alg».proof.Proof.Gen.KernelIdeal.Launch
import proofs.«152440_g81097572483172_cont_9to1c4b_262_12_alg».proof.Proof.Gen.KernelIdeal.Points
import proofs.«152440_g81097572483172_cont_9to1c4b_262_12_alg».proof.Proof.Gen.KernelIdeal.Frame
import proofs.«152440_g81097572483172_cont_9to1c4b_262_12_alg».proof.Proof.Gen.ReferenceIdeal
import proofs.«152440_g81097572483172_cont_9to1c4b_262_12_alg».proof.Proof.Gen.Pre_finite_inputs
import proofs.«152440_g81097572483172_cont_9to1c4b_262_12_alg».proof.Proof.KernelValue
import proofs.«152440_g81097572483172_cont_9to1c4b_262_12_alg».proof.Proof.RefValue
import Idealize.ShloMosaic.Adequacy
import Idealize.ShloMosaic.Init

noncomputable section

namespace Cert.Proof

open Idealize.ShloMosaic Idealize.SL.Sem

/-- The kernel as printed runs and leaves its arguments unchanged. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference's frame is its run with the two results dropped. -/
theorem frame_referenceIdeal : Cert.frame_ReferenceIdeal := fun m ρ _ =>
  (θ_run Cert.ReferenceIdeal.defs _ _).mono (fun _ h c => (h c).2.2) (Cert.ReferenceIdeal.RefValue.run m ρ)

/-- The ideal pass rewrote no operation of the kernel: nothing to preserve. -/
theorem preserves : Cert.preserves_Kernel_KernelIdeal := trivial

/-- From memories that agree on the arguments both idealized programs end with the embedding of the arguments in
    the first result and the all-true mask in the second. -/
theorem algebraic : Cert.algebraic_KernelIdeal_ReferenceIdeal := by
  intro m ρ m' ρ' _ hagree
  refine ⟨_, _, Cert.KernelIdeal.Result.run m ρ, ?_⟩
  refine (θ_run Cert.ReferenceIdeal.defs _ _).mono (fun _ h c => ?_) (Cert.ReferenceIdeal.RefValue.run m' ρ')
  obtain ⟨hout, hmask, hargs⟩ := h c
  refine ⟨hout.trans ?_, hmask, hargs⟩
  rw [(hagree c).1, (hagree c).2.1, (hagree c).2.2.1, (hagree c).2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
